-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S64x128 : Shape := ⟨2, ![64, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S1000000x128 .f32) (main_arg1 : FVec F S64x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S1000000x128 : Shape := ⟨2, ![1000000, 128]⟩
abbrev S64x128 : Shape := ⟨2, ![64, 128]⟩
abbrev S20000x128 : Shape := ⟨2, ![20000, 128]⟩
abbrev S20000x64 : Shape := ⟨2, ![20000, 64]⟩

abbrev nBuf : Space → Nat
  | .hbm => 3
  | .vmem => 5
  | .smem => 0
  | _ => 0

abbrev bufTy : (tb : Table) → Fin (tcTables nBuf tb) → BufTy
  | .hbm, ⟨0, _⟩ => ⟨S1000000x128, .f32⟩
  | .hbm, ⟨1, _⟩ => ⟨S64x128, .f32⟩
  | .hbm, ⟨2, _⟩ => ⟨S1000000x128, .f32⟩
  | .local _ .vmem, ⟨0, _⟩ => ⟨S20000x128, .f32⟩
  | .local _ .vmem, ⟨1, _⟩ => ⟨S20000x128, .f32⟩
  | .local _ .vmem, ⟨2, _⟩ => ⟨S64x128, .f32⟩
  | .local _ .vmem, ⟨3, _⟩ => ⟨S20000x128, .f32⟩
  | .local _ .vmem, ⟨4, _⟩ => ⟨S20000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S20000x128_S20000x128_0_0 : ∀ a, (![0, 0] : Fin 2 → Nat) a + S20000x128.size a ≤ S20000x128.size a
  h_S20000x128 : 0 < S20000x128.numel
  inb_S64x128_S64x128_0_0 : ∀ a, (![0, 0] : Fin 2 → Nat) a + S64x128.size a ≤ S64x128.size a
  h_S64x128 : 0 < S64x128.numel
  dot_S20000x128_S64x128_S20000x64_1_1_0_0_n_n_wf : DotDims.WF S20000x128 S64x128 S20000x64 [1] [1] [0] [0] [] []
  dot_S20000x64_S64x128_S20000x128_1_0_0_1_n_n_wf : DotDims.WF S20000x64 S64x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S1000000x128.size a
  hwx0_0 : ∀ i : grid0.Coords, EltTy.bits .f32 = 32 ∨ (Rect.block (s := S1000000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x128.size a ≤ S1000000x128.size a
  hwx0_2 : ∀ i : grid0.Coords, EltTy.bits .f32 = 32 ∨ (Rect.block (s := S1000000x128) S20000x128.size (cc0_transform_2 i) (hinb0_2 i)).WholeWords (EltTy.packing .f32)

variable [Facts₀]

def dot_S20000x128_S64x128_S20000x64_1_1_0_0_n_n : DotDims S20000x128 S64x128 S20000x64 where
  lhsContracting := [1]
  rhsContracting := [1]
  lhsNonContracting := [0]
  rhsNonContracting := [0]
  lhsBatch := []
  rhsBatch := []
  wf := dot_S20000x128_S64x128_S20000x64_1_1_0_0_n_n_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S20000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S64x128 : Shape := ⟨2, ![64, 128]⟩
abbrev S1000000x64 : Shape := ⟨2, ![1000000, 64]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S64x128, .f32⟩
  | .hbm, ⟨2, _⟩ => ⟨S1000000x64, .f32⟩
  | .hbm, ⟨3, _⟩ => ⟨S1000000x64, .f32⟩
  | .hbm, ⟨4, _⟩ => ⟨S1000000x64, .f32⟩
  | .hbm, ⟨5, _⟩ => ⟨S_, .f32⟩
  | .hbm, ⟨6, _⟩ => ⟨S1000000x64, .f32⟩
  | .hbm, ⟨7, _⟩ => ⟨S1000000x64, .f32⟩
  | .hbm, ⟨8, _⟩ => ⟨S_, .f32⟩
  | .hbm, ⟨9, _⟩ => ⟨S1000000x64, .f32⟩
  | .hbm, ⟨10, _⟩ => ⟨S1000000x64, .f32⟩
  | .hbm, ⟨11, _⟩ => ⟨S_, .f32⟩
  | .hbm, ⟨12, _⟩ => ⟨S1000000x64, .f32⟩
  | .hbm, ⟨13, _⟩ => ⟨S1000000x64, .i1⟩
  | .hbm, ⟨14, _⟩ => ⟨S_, .f32⟩
  | .hbm, ⟨15, _⟩ => ⟨S_, .f32⟩
  | .hbm, ⟨16, _⟩ => ⟨S1000000x64, .f32⟩
  | .hbm, ⟨17, _⟩ => ⟨S1000000x64, .f32⟩
  | .hbm, ⟨18, _⟩ => ⟨S1000000x128, .f32⟩
  | .hbm, ⟨19, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S1000000x64 : S_.BroadcastsInDim S1000000x64 (![] : Fin 0 → Fin S1000000x64.rank)
  dot_S1000000x128_S64x128_S1000000x64_1_1_0_0_n_n_wf : DotDims.WF S1000000x128 S64x128 S1000000x64 [1] [1] [0] [0] [] []
  dot_S1000000x64_S64x128_S1000000x128_1_0_0_1_n_n_wf : DotDims.WF S1000000x64 S64x128 S1000000x128 [1] [0] [0] [1] [] []

variable [Facts₀]

def dot_S1000000x128_S64x128_S1000000x64_1_1_0_0_n_n : DotDims S1000000x128 S64x128 S1000000x64 where
  lhsContracting := [1]
  rhsContracting := [1]
  lhsNonContracting := [0]
  rhsNonContracting := [0]
  lhsBatch := []
  rhsBatch := []
  wf := dot_S1000000x128_S64x128_S1000000x64_1_1_0_0_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGatedMix.lean ====
/-
  A thresholded-logistic mixture of the rows of a small table, read one entry at a time at the exact
  (extended-real) values.

  x is an M×D array and W a T×D table.  Row p of x is scored against every row of W,
      s(p, t) = Σ_d x(p, d) · W(t, d),
  each score becomes a weight  g(s) = logistic(s),  replaced by z wherever logistic(s) < θ,  and the weighted
  rows of W are added back onto x:
      mix(x, W)(p, q) = x(p, q) + Σ_t g(s(p, t)) · W(t, q).
  Entry (p, q) sees x only through its row p.  So the mixture of a block of rows is the same block of the
  mixture of the whole array, and a computation done block of rows by block of rows agrees with one done whole.

  Two spellings of this function are identified with it, for every M, D, T:  the vector unit's (a product with the
  table contracted on its last axis into a zero accumulator, the logistic operation, a compare-and-select against
  splat scalars, a plain product into a zero accumulator, an add), and the host's (two dot_generals, the
  logistic spelt 1 / (1 + exp(−s)) over arrays that hold 1 everywhere, a compare-and-select against arrays that
  hold θ and z everywhere, an add).  Both products are plain finite sums over the extended reals and nothing here
  moves a factor across a sum, so no finiteness of the entries is used.
-/
import Idealize.ShloMosaic.Lib.ValueIdx
import Idealize.ShloMosaic.PureOps.Ideal.Laws
import proofs.«178616_j76192719831252_2_alg».proof.Proof.LibRowDot

noncomputable section

open scoped BigOperators

namespace Cert.GatedMix

open Idealize.ShloMosaic Idealize.ShloMosaic.ValueIdx Cert.RowDot

/-! ## A product with the right operand contracted on its last axis -/

/-- Entry t of (row · Wᵀ) for a T×D matrix W:  the sum over d of row(d) · W(t, d). -/
def rowDotT {D T : Nat} (row : Fin D → EReal) (W : (⟨2, ![T, D]⟩ : Shape).Idx → EReal) (t : Fin T) : EReal :=
  ∑ d : Fin D, row d * W (ix2 t d)

/-- The contraction shape of such a product is one axis. -/
theorem transposed_rank (M K N : Nat) : (DotDims.transposedRhs M K N).contr.rank = 1 := rfl

/-- The left operand's index at output index j keeps j's row. -/
theorem transposed_lhs0 {M K N : Nat} (j : (⟨2, ![M, N]⟩ : Shape).Idx) (u : (DotDims.transposedRhs M K N).contr.Idx) :
    ((DotDims.transposedRhs M K N).lhsIdx j u 0).val = (j 0).val := by
  unfold DotDims.lhsIdx
  rw [dif_neg (show ¬((0 : Fin (⟨2, ![M, K]⟩ : Shape).rank) ∈ (DotDims.transposedRhs M K N).lhsBatch) from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposed_lhs1 {M K N : Nat} (j : (⟨2, ![M, N]⟩ : Shape).Idx) (u : (DotDims.transposedRhs M K N).contr.Idx) :
    ((DotDims.transposedRhs M K N).lhsIdx j u 1).val = (u ⟨0, by rw [transposed_rank]; exact Nat.one_pos⟩).val :=
  (DotDims.transposedRhs M K N).lhsIdx_val_of_single rfl j u

/-- The right operand's row is j's column. -/
theorem transposed_rhs0 {M K N : Nat} (j : (⟨2, ![M, N]⟩ : Shape).Idx) (u : (DotDims.transposedRhs M K N).contr.Idx) :
    ((DotDims.transposedRhs M K N).rhsIdx j u 0).val = (j 1).val := by
  unfold DotDims.rhsIdx
  rw [dif_neg (show ¬((0 : Fin (⟨2, ![N, K]⟩ : Shape).rank) ∈ (DotDims.transposedRhs M K N).rhsBatch) from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposed_rhs1 {M K N : Nat} (j : (⟨2, ![M, N]⟩ : Shape).Idx) (u : (DotDims.transposedRhs M K N).contr.Idx) :
    ((DotDims.transposedRhs M K N).rhsIdx j u 1).val = (u ⟨0, by rw [transposed_rank]; exact Nat.one_pos⟩).val :=
  (DotDims.transposedRhs M K N).rhsIdx_val_of_single rfl j u

/-- The contraction's sum, re-indexed by k < K: row (j 0) of l against row (j 1) of r. -/
theorem transposed_contr_sum {M K N : Nat} (l : (⟨2, ![M, K]⟩ : Shape).Idx → EReal) (r : (⟨2, ![N, K]⟩ : Shape).Idx → EReal)
    (j : (⟨2, ![M, N]⟩ : Shape).Idx) :
    ∑ u : (DotDims.transposedRhs M K N).contr.Idx,
        l ((DotDims.transposedRhs M K N).lhsIdx j u) * r ((DotDims.transposedRhs M K N).rhsIdx j u)
      = rowDotT (rowOf l (j 0)) r (j 1) := by
  unfold rowDotT rowOf
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposed_lhs0 j _
      | ⟨1, _⟩ => exact (transposed_lhs1 j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposed_rhs0 j _
      | ⟨1, _⟩ => exact (transposed_rhs1 j _).trans hk)
  exact congrArg₂ (fun a b : EReal => a * b) (congrArg l el) (congrArg r er)

/-- The vector unit's product into the zero accumulator, at an entry. -/
theorem matmul_transposed_zero_apply {M K N : Nat} {φ₁ φ₂ : FTy} (prec : Option ContractPrecision)
    (lhs : FVec Ideal (⟨2, ![M, K]⟩ : Shape) φ₁) (rhs : FVec Ideal (⟨2, ![N, K]⟩ : Shape) φ₂) (j : (⟨2, ![M, N]⟩ : Shape).Idx) :
    FloatOps.matmul (DotDims.transposedRhs M K N) prec lhs rhs (constant (F := Ideal) (⟨2, ![M, N]⟩ : Shape) .f32 0x00000000#32) j
      = rowDotT (rowOf lhs (j 0)) rhs (j 1) := by
  rw [Ideal.matmul_constant_zero_apply]
  exact transposed_contr_sum lhs rhs j

/-- The host's dot_general, at an entry. -/
theorem dotGeneral_transposed_apply {M K N : Nat} {φ₁ φ₂ : FTy} (prec : Option ContractPrecision) (sched : HostSchedule)
    (lhs : FVec Ideal (⟨2, ![M, K]⟩ : Shape) φ₁) (rhs : FVec Ideal (⟨2, ![N, K]⟩ : Shape) φ₂) (j : (⟨2, ![M, N]⟩ : Shape).Idx) :
    FloatOps.dotGeneral (DotDims.transposedRhs M K N) prec sched lhs rhs j = rowDotT (rowOf lhs (j 0)) rhs (j 1) := by
  rw [Ideal.dotGeneral_apply]
  exact transposed_contr_sum lhs rhs j

/-! ## The mixture -/

/-- The weight of a score: its logistic, replaced by z where that is strictly below θ. -/
def gate (θ z s : EReal) : EReal :=
  Scalar.select (FloatOps.cmpf (F := Ideal) (φ := .f32) .olt (Ideal.logistic s) θ) z (Ideal.logistic s)

/-- One row of the mixture: the row plus the table's rows weighted by the gated scores of the row. -/
def mixRow {D T : Nat} (θ z : EReal) (row : Fin D → EReal) (W : (⟨2, ![T, D]⟩ : Shape).Idx → EReal) (q : Fin D) : EReal :=
  row q + ∑ t : Fin T, gate θ z (rowDotT row W t) * W (ix2 t q)

/-- The mixture of an M×D array with a T×D table: entry (p, q) is entry q of the mixture of row p. -/
def mix {M D T : Nat} (θ z : EReal) (x : (⟨2, ![M, D]⟩ : Shape).Idx → EReal) (W : (⟨2, ![T, D]⟩ : Shape).Idx → EReal) :
    (⟨2, ![M, D]⟩ : Shape).Idx → EReal :=
  fun j => mixRow θ z (rowOf x (j 0)) W (j 1)

/-- Entry (p, q) of the mixture depends on x through row p only: if row p' of x' is row p of x, the entries agree. -/
theorem mix_rows {M M' D T : Nat} (θ z : EReal) (x : (⟨2, ![M, D]⟩ : Shape).Idx → EReal) (x' : (⟨2, ![M', D]⟩ : Shape).Idx → EReal)
    (W : (⟨2, ![T, D]⟩ : Shape).Idx → EReal) (p : Fin M) (p' : Fin M') (q : Fin D)
    (h : ∀ d : Fin D, x' (ix2 p' d) = x (ix2 p d)) :
    mix θ z x' W (ix2 p' q) = mix θ z x W (ix2 p q) := by
  have hr : rowOf x' p' = rowOf x p := funext h
  show mixRow θ z (rowOf x' p') W q = mixRow θ z (rowOf x p) W q
  rw [hr]

/-- The same for whole indices: entry y of the mixture of x' is entry i of the mixture of x when row (y 0) of x' is row
    (i 0) of x and the two indices name the same column. -/
theorem mix_block {M M' D T : Nat} (θ z : EReal) (x : (⟨2, ![M, D]⟩ : Shape).Idx → EReal) (x' : (⟨2, ![M', D]⟩ : Shape).Idx → EReal)
    (W : (⟨2, ![T, D]⟩ : Shape).Idx → EReal) (y : (⟨2, ![M', D]⟩ : Shape).Idx) (i : (⟨2, ![M, D]⟩ : Shape).Idx)
    (hrow : ∀ d : Fin D, x' (ix2 (y 0) d) = x (ix2 (i 0) d)) (hcol : (i 1).val = (y 1).val) :
    mix θ z x' W y = mix θ z x W i := by
  have e0 : rowOf x' (y 0) = rowOf x (i 0) := funext hrow
  have e1 : (y 1 : Fin D) = (i 1 : Fin D) := Fin.ext hcol.symm
  show mixRow θ z (rowOf x' (y 0)) W (y 1) = mixRow θ z (rowOf x (i 0)) W (i 1)
  exact congrArg₂ (fun (r : Fin D → EReal) (q : Fin D) => mixRow θ z r W q) e0 e1

/-! ## The vector unit's spelling -/

/-- A product contracted on the table's last axis into zero, the logistic, the compare-and-select against two splat
    scalars, a plain product with the table into zero, and the add: the mixture, with θ and z the two words' values. -/
theorem vector_form {M D T : Nat} (p₁ p₂ : Option ContractPrecision) (θw zw : BitVec 32)
    (x : FVec Ideal (⟨2, ![M, D]⟩ : Shape) .f32) (W : FVec Ideal (⟨2, ![T, D]⟩ : Shape) .f32) :
    addf x (matmul (DotDims.plain M T D) p₂
        (select
          (cmpf .olt
            (logistic (matmul (DotDims.transposedRhs M D T) p₁ x W (constant (⟨2, ![M, T]⟩ : Shape) .f32 0x00000000#32)))
            (broadcast (⟨2, ![M, T]⟩ : Shape) (Scalar.ofBits (F := Ideal) .f32 θw)))
          (broadcast (⟨2, ![M, T]⟩ : Shape) (Scalar.ofBits (F := Ideal) .f32 zw))
          (logistic (matmul (DotDims.transposedRhs M D T) p₁ x W (constant (⟨2, ![M, T]⟩ : Shape) .f32 0x00000000#32))))
        W (constant (⟨2, ![M, D]⟩ : Shape) .f32 0x00000000#32))
      = mix (Ideal.ofBits .f32 θw) (Ideal.ofBits .f32 zw) x W := by
  funext j
  obtain ⟨p, q, rfl⟩ : ∃ (p : Fin M) (q : Fin D), j = ix2 p q := ⟨j 0, j 1, eq_ix2 j⟩
  rw [addf_apply]
  refine congrArg (x (ix2 p q) + ·) ?_
  refine (matmul_plain_zero_apply p₂ _ W (ix2 p q)).trans ?_
  refine Finset.sum_congr rfl fun t _ => ?_
  refine congrArg (· * W (ix2 t q)) ?_
  show Scalar.select (FloatOps.cmpf .olt (Ideal.logistic (FloatOps.matmul (DotDims.transposedRhs M D T) p₁ x W
      (constant (F := Ideal) (⟨2, ![M, T]⟩ : Shape) .f32 0x00000000#32) (ix2 p t))) (Ideal.ofBits .f32 θw)) (Ideal.ofBits .f32 zw)
      (Ideal.logistic (FloatOps.matmul (DotDims.transposedRhs M D T) p₁ x W
      (constant (F := Ideal) (⟨2, ![M, T]⟩ : Shape) .f32 0x00000000#32) (ix2 p t))) = _
  rw [matmul_transposed_zero_apply]
  rfl

/-! ## The host's spelling -/

/-- The f32 word of 1.0 is the number 1. -/
theorem one_word : Ideal.ofBits .f32 0x3F800000#32 = 1 := by
  simp [Ideal.ofBits, Ideal.ieee, -EReal.coe_mul]; norm_num

/-- Two dot_generals, the logistic spelt 1 / (1 + exp(−s)) over arrays that are 1 everywhere, the compare-and-select
    against arrays that are θ and z everywhere, and the add: the mixture. -/
theorem host_form {M D T : Nat} (p₁ p₂ : Option ContractPrecision) (θ z : EReal)
    (x : FVec Ideal (⟨2, ![M, D]⟩ : Shape) .f32) (W : FVec Ideal (⟨2, ![T, D]⟩ : Shape) .f32)
    (one one' θv zv : FVec Ideal (⟨2, ![M, T]⟩ : Shape) .f32)
    (h1 : ∀ i, one i = 1) (h1' : ∀ i, one' i = 1) (hθ : ∀ i, θv i = θ) (hz : ∀ i, zv i = z) :
    addf x (Host.dotGeneral (DotDims.plain M T D) p₂
        (select
          (cmpf .olt
            (Host.divf one (addf one' (Host.exp (Host.negf (Host.dotGeneral (DotDims.transposedRhs M D T) p₁ x W)))))
            θv)
          zv
          (Host.divf one (addf one' (Host.exp (Host.negf (Host.dotGeneral (DotDims.transposedRhs M D T) p₁ x W))))))
        W)
      = mix θ z x W := by
  funext j
  obtain ⟨p, q, rfl⟩ : ∃ (p : Fin M) (q : Fin D), j = ix2 p q := ⟨j 0, j 1, eq_ix2 j⟩
  rw [addf_apply]
  refine congrArg (x (ix2 p q) + ·) ?_
  refine (dotGeneral_plain_apply p₂ .single _ W (ix2 p q)).trans ?_
  refine Finset.sum_congr rfl fun t _ => ?_
  refine congrArg (· * W (ix2 t q)) ?_
  show Scalar.select (FloatOps.cmpf .olt
      (FloatOps.hostDivf (one (ix2 p t)) (FloatOps.addf (one' (ix2 p t)) (FloatOps.hostUnary .exp (FloatOps.hostNegf
        (FloatOps.dotGeneral (DotDims.transposedRhs M D T) p₁ .single x W (ix2 p t))))))
      (θv (ix2 p t))) (zv (ix2 p t))
      (FloatOps.hostDivf (one (ix2 p t)) (FloatOps.addf (one' (ix2 p t)) (FloatOps.hostUnary .exp (FloatOps.hostNegf
        (FloatOps.dotGeneral (DotDims.transposedRhs M D T) p₁ .single x W (ix2 p t)))))) = _
  rw [dotGeneral_transposed_apply, h1, h1', hθ, hz]
  rfl

end Cert.GatedMix

end
-- ==== Proof.RowBlocks.lean ====
/-
  What the kernel leaves in its result array, at the exact values.

  The grid has 50 points.  Point t is handed rows 20000·t … 20000·t + 19999 of x (all 128 columns) and the whole
  64×128 token table, and writes back the same rows of the result.  On its block the body computes the
  thresholded-logistic mixture of those rows with the table; an entry of the mixture sees x only through its own
  row, so what point t writes is rows 20000·t … of the mixture of the WHOLE array x.  Row r lies in the block of
  point r / 20000, so the 50 blocks cover the result, which therefore ends holding the mixture of x with the table.
-/
import proofs.«178616_j76192719831252_2_alg».proof.Proof.Gen.KernelIdeal.Value
import proofs.«178616_j76192719831252_2_alg».proof.Proof.LibGatedMix
import Idealize.ShloMosaic.Lib.Pipeline.Value
import Idealize.ShloMosaic.Lib.ValueIdx

noncomputable section

namespace Cert.KernelIdeal.RowBlocks

open Cert.KernelIdeal Cert.KernelIdeal.Gen Idealize.ShloMosaic Idealize.ShloMosaic.TcCoe Idealize.SL.Sem
open Idealize.ShloMosaic.ValueIdx Cert.GatedMix
open Idealize.ShloMosaic.Pipeline (Dat)

variable (m : (ℓ : Loc nD τ sig) → Buf (Elt Ideal) ℓ) (ρ : Dev nD → PrngReg)

/-- The threshold: the value of the f32 word of 0.2. -/
abbrev θ : EReal := Ideal.ofBits .f32 0x3E4CCCCD#32
/-- What a weight below the threshold is replaced by: the value of the f32 zero word. -/
abbrev z : EReal := Ideal.ofBits .f32 0x00000000#32

theorem origin : (![0, 0] : Fin 2 → Nat) = fun _ => 0 := funext fun a => by fin_cases a <;> rfl

/-- The body's arithmetic on a block of 20000 rows and the table is the mixture of those rows with the table. -/
theorem body_eq (v0 : Vec Ideal S20000x128 .f32) (v1 : Vec Ideal S64x128 .f32) :
    k0_pay1 (F := Ideal) v0 v1 = mix θ z v0 v1 := by
  unfold k0_pay1
  exact vector_form (some .fp32) (some .fp32) 0x3E4CCCCD#32 0x00000000#32 v0 v1

/-- The block indices over the grid: point t takes row block t of x and of the result, column block 0, and block
    (0, 0) of the table. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- At every point the table's block is the whole table. -/
theorem table_block (c : Dev nD) (t : Fin cfg0.N) : iblk m c 1 t = V m c main_arg1 := by
  obtain ⟨-, -, e0, e1, -, -⟩ := idx_facts t
  funext y
  unfold iblk
  rw [View.read_apply]
  show V m c main_arg1 _ = V m c main_arg1 y
  congr 1
  funext a
  apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- WHAT POINT t WRITES BACK is block t of the mixture of the whole array with the table. -/
theorem flushed_eq (c : Dev nD) (t : Fin cfg0.N) :
    (dats m 0 c).flushed 2 t
      = ((cfg0.win 2).blk t).view.read (Elt Ideal) (mix θ z (V m c main_arg0) (V m c main_arg1)) := by
  rw [Value.flushed2]
  unfold out0_2
  rw [View.canon_unit_zero origin]
  simp only [View.ld_unit_zero (S := S20000x128) origin, View.ld_unit_zero (S := S64x128) origin]
  rw [body_eq, table_block]
  obtain ⟨e0, e1, -, -, e4, e5⟩ := idx_facts t
  funext y
  show mix θ z (iblk m c 0 t) (V m c main_arg1) y
    = mix θ z (V m c main_arg0) (V m c main_arg1) (((cfg0.win 2).blk t).view.emb y)
  refine mix_block θ z (V m c main_arg0) (iblk m c 0 t) (V m c main_arg1) y (((cfg0.win 2).blk t).view.emb y) (fun d => ?_) ?_
  · unfold iblk
    rw [View.read_apply]
    show V m c main_arg0 _ = V m c main_arg0 _
    congr 1
    funext a
    apply Fin.ext
    match a with
    | ⟨0, _⟩ =>
      show win0_0.index t (0 : Fin 2) * 20000 + 1 * (y 0).val = win0_2.index t (0 : Fin 2) * 20000 + 1 * (y 0).val
      omega
    | ⟨1, _⟩ =>
      show win0_0.index t (1 : Fin 2) * 128 + 1 * d.val = d.val
      omega
  · show win0_2.index t (1 : Fin 2) * 128 + 1 * (y 1).val = (y 1).val
    omega

/-- An index of the result is in point t's block iff each coordinate is in the block's range on its axis. -/
theorem mem_blk (t : Fin cfg0.N) (i : S1000000x128.Idx) :
    i ∈ ((cfg0.win 2).blk t).view.set ↔ ∀ a : Fin 2, win0_2.index t a * S20000x128.size a ≤ (i a).val
      ∧ (i a).val < win0_2.index t a * S20000x128.size a + S20000x128.size a := by
  show i ∈ ((View.whole main_v0).slice (win0_2.rect t)).set ↔ _
  rw [View.set_slice_whole, Rect.mem_set_unit]
  exact Iff.rfl

/-- Row r of the result lies in the block of point r / 20000: the blocks cover the result. -/
theorem cover (i : S1000000x128.Idx) :
    ∃ t : Fin cfg0.N, (cfg0.win 2).flush t = true ∧ i ∈ ((cfg0.win 2).blk t).view.set := by
  have hi0 : (i 0).val < 1000000 := (i 0).isLt
  have hi1 : (i 1).val < 128 := (i 1).isLt
  have hN : cfg0.N = 50 := N_0
  obtain ⟨t, ht⟩ : ∃ t : Fin cfg0.N, t.val = (i 0).val / 20000 := ⟨⟨(i 0).val / 20000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 20000 ≤ (i 0).val ∧ (i 0).val < win0_2.index t (0 : Fin 2) * 20000 + 20000
    omega
  | ⟨1, _⟩ =>
    show win0_2.index t (1 : Fin 2) * 128 ≤ (i 1).val ∧ (i 1).val < win0_2.index t (1 : Fin 2) * 128 + 128
    omega

/-- THE RESULT ARRAY after the run: the mixture of x with the table. -/
theorem final (c : Dev nD) :
    (dats m 0 c).arrAt 2 cfg0.N = mix θ z (V m c main_arg0) (V m c main_arg1) :=
  (dats m 0 c).arrAt_eq_of_cover 2 (mix θ z (V m c main_arg0) (V m c main_arg1)) (fun t _ => flushed_eq m c t) cover

/-- The kernel's run, read: every weakly fair execution ends with the result at the mixture of the argument arrays
    and the arguments unchanged. -/
theorem run : θ_run defs (onTc (τ := τ) (main (F := Ideal))) ⟨m, fun _ => 0, ρ⟩ fun r => ∀ c : Dev nD,
      r.2.mem ((c : Thread nD τ).loc main_v0)
        = mix θ z (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RowBlocks

end
-- ==== Proof.HostMix.lean ====
/-
  What the reference computes, at the exact values.

  The reference scores every row of x against the token table with one dot_general, spells the logistic as
  1 / (1 + exp(−s)) over arrays filled with the word of 1.0, replaces the weights below the word of 0.2 by the zero
  word through a compare-and-select against filled arrays, multiplies the weights into the table with a second
  dot_general and adds x.  That is the thresholded-logistic mixture of the whole array x with the table.
-/
import proofs.«178616_j76192719831252_2_alg».proof.Proof.Gen.ReferenceIdeal.Run
import proofs.«178616_j76192719831252_2_alg».proof.Proof.LibGatedMix
import Idealize.ShloMosaic.Lib.Pipeline.Value
import Idealize.ShloMosaic.Lib.ValueIdx

noncomputable section

namespace Cert.ReferenceIdeal.HostMix

open Cert.ReferenceIdeal Cert.ReferenceIdeal.Gen Idealize.ShloMosaic Idealize.ShloMosaic.TcCoe Idealize.SL.Sem
open Idealize.ShloMosaic.ValueIdx Cert.GatedMix

/-- An array filled with a scalar word holds the word's value at every index. -/
theorem filled (w : BitVec 32) (i : S1000000x64.Idx) :
    broadcastInDim S1000000x64 ![] bcast_S_S1000000x64 (constant (F := Ideal) S_ .f32 w) i = Ideal.ofBits .f32 w :=
  broadcastInDim_apply _ bcast_S_S1000000x64 (constant (F := Ideal) S_ .f32 w) i (fun a => a.elim0) (fun a => a.elim0)

/-- The term the reference's run ends at is the mixture of its two arguments, with the threshold the value of the word
    of 0.2 and the replacement the value of the zero word. -/
theorem result_eq (X : FVec Ideal S1000000x128 .f32) (W : FVec Ideal S64x128 .f32) :
    addf X (Host.dotGeneral dot_S1000000x64_S64x128_S1000000x128_1_0_0_1_n_n none
      (select
        (cmpf .olt
          (Host.divf (broadcastInDim S1000000x64 ![] bcast_S_S1000000x64 (constant S_ .f32 0x3F800000#32))
            (addf (broadcastInDim S1000000x64 ![] bcast_S_S1000000x64 (constant S_ .f32 0x3F800000#32))
              (Host.exp (Host.negf (Host.dotGeneral dot_S1000000x128_S64x128_S1000000x64_1_1_0_0_n_n none X W)))))
          (broadcastInDim S1000000x64 ![] bcast_S_S1000000x64 (constant S_ .f32 0x3E4CCCCD#32)))
        (broadcastInDim S1000000x64 ![] bcast_S_S1000000x64 (id (constant S_ .f32 0x00000000#32)))
        (Host.divf (broadcastInDim S1000000x64 ![] bcast_S_S1000000x64 (constant S_ .f32 0x3F800000#32))
          (addf (broadcastInDim S1000000x64 ![] bcast_S_S1000000x64 (constant S_ .f32 0x3F800000#32))
            (Host.exp (Host.negf (Host.dotGeneral dot_S1000000x128_S64x128_S1000000x64_1_1_0_0_n_n none X W))))))
      W)
    = mix (Ideal.ofBits .f32 0x3E4CCCCD#32) (Ideal.ofBits .f32 0x00000000#32) X W :=
  host_form none none (Ideal.ofBits .f32 0x3E4CCCCD#32) (Ideal.ofBits .f32 0x00000000#32) X W
    (broadcastInDim S1000000x64 ![] bcast_S_S1000000x64 (constant S_ .f32 0x3F800000#32))
    (broadcastInDim S1000000x64 ![] bcast_S_S1000000x64 (constant S_ .f32 0x3F800000#32))
    (broadcastInDim S1000000x64 ![] bcast_S_S1000000x64 (constant S_ .f32 0x3E4CCCCD#32))
    (broadcastInDim S1000000x64 ![] bcast_S_S1000000x64 (id (constant S_ .f32 0x00000000#32)))
    (fun i => (filled 0x3F800000#32 i).trans one_word)
    (fun i => (filled 0x3F800000#32 i).trans one_word)
    (fun i => filled 0x3E4CCCCD#32 i)
    (fun i => filled 0x00000000#32 i)

end Cert.ReferenceIdeal.HostMix

end
-- ==== Proof.lean ====
/-
  The kernel against its reference, at the exact values.

  Both programs take an array x of 1000000 rows of 128 numbers and a table of 64 token rows, and both compute the
  thresholded-logistic mixture
      out(p, q) = x(p, q) + Σ_t g(Σ_d x(p, d)·tok(t, d)) · tok(t, q),
  where g(s) is logistic(s), replaced by the zero word's value when it is strictly below the value of the word of 0.2.
  The kernel does so block of 20000 rows by block; since an entry depends on x only through its own row, the blocks it
  writes are the blocks of the mixture of the whole array, and they cover the result (Proof/RowBlocks.lean).  The
  reference does so with two dot_generals and the logistic spelt 1 / (1 + exp(−s)), which over the extended reals is
  the same function, at the infinities too (Proof/HostMix.lean).  Both products are plain sums and no factor moves
  across a sum, so the finiteness of the inputs is never used: the two results are the same function of any arguments.

  The three frames: each kernel program runs to its end with its arguments unchanged by its generated frame; the
  reference by its generated run.  The idealization rewrote nothing, so there is nothing to preserve.
-/
import proofs.«178616_j76192719831252_2_alg».proof.Defs
import proofs.«178616_j76192719831252_2_alg».proof.Proof.Gen.Kernel
import proofs.«178616_j76192719831252_2_alg».proof.Proof.Gen.Kernel.Skeleton
import proofs.«178616_j76192719831252_2_alg».proof.Proof.Gen.Kernel.Launch
import proofs.«178616_j76192719831252_2_alg».proof.Proof.Gen.Kernel.Points
import proofs.«178616_j76192719831252_2_alg».proof.Proof.Gen.Kernel.Frame
import proofs.«178616_j76192719831252_2_alg».proof.Proof.Gen.KernelIdeal
import proofs.«178616_j76192719831252_2_alg».proof.Proof.Gen.KernelIdeal.Skeleton
import proofs.«178616_j76192719831252_2_alg».proof.Proof.Gen.KernelIdeal.Launch
import proofs.«178616_j76192719831252_2_alg».proof.Proof.Gen.KernelIdeal.Points
import proofs.«178616_j76192719831252_2_alg».proof.Proof.Gen.KernelIdeal.Frame
import proofs.«178616_j76192719831252_2_alg».proof.Proof.Gen.ReferenceIdeal
import proofs.«178616_j76192719831252_2_alg».proof.Proof.Gen.Pre_finite_inputs
import proofs.«178616_j76192719831252_2_alg».proof.Proof.Gen.KernelIdeal.Value
import proofs.«178616_j76192719831252_2_alg».proof.Proof.Gen.ReferenceIdeal.Run
import proofs.«178616_j76192719831252_2_alg».proof.Proof.RowBlocks
import proofs.«178616_j76192719831252_2_alg».proof.Proof.HostMix
import Idealize.ShloMosaic.Adequacy
import Idealize.ShloMosaic.Init

noncomputable section

namespace Cert.Proof

open Idealize.ShloMosaic Idealize.ShloMosaic.TcCoe Idealize.SL.Sem

/-- The word-level kernel runs to its end and leaves its arguments as they were. -/
theorem frame_kernel : Cert.frame_Kernel :=
  fun m ρ _ => Cert.Kernel.Gen.frame m ρ

/-- So does the kernel read at the exact values. -/
theorem frame_kernelIdeal : Cert.frame_KernelIdeal :=
  fun m ρ _ => Cert.KernelIdeal.Gen.frame m ρ

/-- The reference runs to its end and leaves its arguments as they were: its run, with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on x and on the table, the kernel's result array ends at the mixture of the two arguments
    (its blocks, assembled) and the reference's at the same mixture (its operations, read entry by entry). -/
theorem algebraic : Cert.algebraic_KernelIdeal_ReferenceIdeal := by
  intro m ρ m' ρ' _ hagree
  refine ⟨_, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.HostMix.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
